-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x5 .f32) (main_arg1 : IVec S2x1600000 32) (main_arg2 : FVec F S5x128 .f32) (main_arg3 : FVec F S128 .f32) (main_arg4 : FVec F S128x64 .f32) (main_arg5 : FVec F S64 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x128 .f32 := Host.absf main_arg2
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x5 : Shape := ⟨2, ![10000, 5]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x5, .f32⟩
  | .hbm, ⟨1, _⟩ => ⟨S2x1600000, .i32⟩
  | .hbm, ⟨2, _⟩ => ⟨S5x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S10000x5, .f32⟩
  | .local _ .vmem, ⟨1, _⟩ => ⟨S10000x5, .f32⟩
  | .local _ .vmem, ⟨2, _⟩ => ⟨S5x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x5_S10000x5_0_0 : ∀ a, (![0, 0] : Fin 2 → Nat) a + S10000x5.size a ≤ S10000x5.size a
  h_S10000x5 : 0 < S10000x5.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x5_S5x128_S10000x128_1_0_0_1_n_n_wf : DotDims.WF S10000x5 S5x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x5_S5x128_S10000x128_1_0_0_1_n_n : DotDims S10000x5 S5x128 S10000x128 where
  lhsContracting := [1]
  rhsContracting := [0]
  lhsNonContracting := [0]
  rhsNonContracting := [1]
  lhsBatch := []
  rhsBatch := []
  wf := dot_S10000x5_S5x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x1600000, .i32⟩
  | .hbm, ⟨2, _⟩ => ⟨S5x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x5_S5x128_S100000x128_1_0_0_1_n_n_wf : DotDims.WF S100000x5 S5x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RunValue.lean ====
/-
  The program's run with its result named. The launch of @main's nine segments (three stretches of host operations,
  the first product, a stretch, the bias-and-cut region, the second product, a stretch, the bias region) ends with
  every unscoped buffer at the last boundary's contents; read at the result buffer as well as at the arguments, it
  gives the run's post with the result array at what the last region's write-backs leave.
-/
import proofs.«175831_j11166914970268_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.HostTerms.lean ====
/-
  The host computations around the four regions, named. From the edge table [2, E] the program forms the source and
  the destination index vectors, each followed by the nodes' own indices 0 … N-1 (every node is joined to itself);
  the degree of a node is the number of index entries that land on it (ones added per destination, from zero); its
  inverse root is taken where the degree is positive and is zero elsewhere; an edge's weight is the inverse root at
  its source times the inverse root at its destination (negative indices wrapped by N before the lookup). A layer's
  aggregation gathers the rows of a table along the sources, scales each gathered row by its edge's weight, and adds
  the scaled rows per destination, from zero. Nothing here is evaluated: the terms are only named, so that the
  program's run and the reference's can be seen to apply the same maps.
-/
import proofs.«175831_j11166914970268_1_alg».proof.KernelIdeal
import Idealize.ShloMosaic.PureOps.Ideal

noncomputable section

namespace Cert.KernelIdeal.HostTerms

open Idealize.ShloMosaic Cert.KernelIdeal

variable [Cert.KernelIdeal.Facts]
open Cert.KernelIdeal.Facts₀ Cert.KernelIdeal.Facts

/-- Integer and float arrays as the host operations take them. -/
abbrev IArr (s : Shape) : Type := IVec s 32
abbrev FArr (s : Shape) : Type := FVec Ideal s .f32

/-- Row 0 of the edge table followed by 0 … N-1: the sources, self-loops included. -/
def srcIdx (e : IArr S2x1600000) : IArr S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge table followed by 0 … N-1: the destinations, self-loops included. -/
def dstIdx (e : IArr S2x1600000) : IArr S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index wrapped by N = 100000, as a column of start indices. -/
def wrapCol (s : IArr S1700000) : IArr S1700000x1 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The degree: from zero, a one added at the destination of every edge. -/
def degree (d : IArr S1700000) : FArr S100000 :=
  Host.scatterAdd (F := Ideal) scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- The inverse root of the degree where it is positive, zero elsewhere. -/
def invRoot (d : IArr S1700000) : FArr S100000 :=
  select (cmpf (F := Ideal) .ogt (degree d) (broadcastInDim S100000 ![] bcast_S_S100000 (constant S_ .f32 0x00000000#32))) (Host.rsqrt (F := Ideal) (degree d)) (broadcastInDim S100000 ![] bcast_S_S100000 (id (constant (F := Ideal) S_ .f32 0x00000000#32)))

/-- An edge's weight: the inverse root at its source times the inverse root at its destination. -/
def edgeNorm (s d : IArr S1700000) : FArr S1700000 :=
  mulf (F := Ideal) (Host.gather gather_S100000_S1700000x1_S1700000_n_0_n_n_0_1_1 (invRoot d) (wrapCol s)) (Host.gather gather_S100000_S1700000x1_S1700000_n_0_n_n_0_1_1 (invRoot d) (wrapCol d))

/-- The first layer's aggregation of a [N, 128] table. -/
def agg128 (s d : IArr S1700000) (n : FArr S1700000) (h : FArr S100000x128) : FArr S100000x128 :=
  Host.scatterAdd (F := Ideal) scatter_S100000x128_S1700000x1_S1700000x128_1_0_0_1 (broadcastInDim S100000x128 ![] bcast_S_S100000x128 (constant S_ .f32 0x00000000#32)) (broadcastInDim S1700000x1 ![0] bcast_S1700000_S1700000x1_0 d) (mulf (F := Ideal) (Host.gather gather_S100000x128_S1700000x1_S1700000x128_1_0_n_n_0_1_1128 h (wrapCol s)) (broadcastInDim S1700000x128 ![0, 1] bcast_S1700000x1_S1700000x128_0_1 (broadcastInDim S1700000x1 ![0] bcast_S1700000_S1700000x1_0 n)))

/-- The second layer's aggregation of a [N, 64] table. -/
def agg64 (s d : IArr S1700000) (n : FArr S1700000) (h : FArr S100000x64) : FArr S100000x64 :=
  Host.scatterAdd (F := Ideal) scatter_S100000x64_S1700000x1_S1700000x64_1_0_0_1 (broadcastInDim S100000x64 ![] bcast_S_S100000x64 (constant S_ .f32 0x00000000#32)) (broadcastInDim S1700000x1 ![0] bcast_S1700000_S1700000x1_0 d) (mulf (F := Ideal) (Host.gather gather_S100000x64_S1700000x1_S1700000x64_1_0_n_n_0_1_164 h (wrapCol s)) (broadcastInDim S1700000x64 ![0, 1] bcast_S1700000x1_S1700000x64_0_1 (broadcastInDim S1700000x1 ![0] bcast_S1700000_S1700000x1_0 n)))

/-- The two aggregations on the edge table's own vectors. -/
def layerAgg128 (e : IArr S2x1600000) : FArr S100000x128 → FArr S100000x128 :=
  agg128 (srcIdx e) (dstIdx e) (edgeNorm (srcIdx e) (dstIdx e))

def layerAgg64 (e : IArr S2x1600000) : FArr S100000x64 → FArr S100000x64 :=
  agg64 (srcIdx e) (dstIdx e) (edgeNorm (srcIdx e) (dstIdx e))

end Cert.KernelIdeal.HostTerms

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«175831_j11166914970268_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«175831_j11166914970268_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.Spec.lean ====
/-
  The function both programs compute, over the extended reals: a two-layer graph network in which each layer
  multiplies the node features by a weight matrix, passes the product through an aggregation over the graph's
  edges, and adds a bias row; the first layer's result is cut at zero before the second. The aggregation is a
  parameter here — any map of [N, H] arrays and any map of [N, C] arrays — because the two programs aggregate
  in the same way (rows gathered along the edges, scaled by the edge's normalisation, summed per destination), so
  nothing about it is needed beyond its being the same map on both sides. No program is mentioned.
-/
import proofs.«175831_j11166914970268_1_alg».proof.Proof.LibRowBlocks

noncomputable section

namespace Cert.TwoLayer

open Idealize.ShloMosaic Idealize.ShloMosaic.ValueIdx Cert.DenseLib Cert.RowBlocks

/-- `A2 (relu (A1 (X · W1) + b1) · W2) + b2`, with `A1`, `A2` the aggregations of the two layers. -/
def net {N K H C : ℕ}
    (A1 : ((⟨2, ![N, H]⟩ : Shape).Idx → EReal) → (⟨2, ![N, H]⟩ : Shape).Idx → EReal)
    (A2 : ((⟨2, ![N, C]⟩ : Shape).Idx → EReal) → (⟨2, ![N, C]⟩ : Shape).Idx → EReal)
    (X : (⟨2, ![N, K]⟩ : Shape).Idx → EReal) (W1 : (⟨2, ![K, H]⟩ : Shape).Idx → EReal) (b1 : Fin H → EReal)
    (W2 : (⟨2, ![H, C]⟩ : Shape).Idx → EReal) (b2 : Fin C → EReal) : (⟨2, ![N, C]⟩ : Shape).Idx → EReal :=
  biased (A2 (mm (relu (biased (A1 (mm X W1)) b1)) W2)) b2

/-- An entry of `relu (A + b)` is determined by that entry of `A` and its column's bias. -/
theorem reluBiased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : relu (biased A' b') j = relu (biased A b) i :=
  congrArg (fun z => max z 0) (biased_eq_of_entry A' b' A b j i hb hq hx)

end Cert.TwoLayer

end
-- ==== Proof.Region0.lean ====
/-
  The first product, block by block and as a whole. The region runs over ten points; point t holds rows
  10000·t … 10000·t + 9999 of the features and the whole weight matrix, and writes back those rows of the product.
  A row of a product depends only on the same row of the left operand, so each written block is that block of the
  whole product X · W, and the ten blocks tile the array: after the region the array holds X · W.
-/
import proofs.«175831_j11166914970268_1_alg».proof.Proof.Gen.KernelIdeal.Frame
import proofs.«175831_j11166914970268_1_alg».proof.Proof.LibRowBlocks
import Idealize.ShloMosaic.Lib.Pipeline.Value

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.DenseLib Cert.RowBlocks Cert.LayoutLib

variable (V : (c : Dev nD) → (b : Ref sig .tc) → Buf (Elt Ideal) ((c : Thread nD τ).loc b))

theorem zero_off : (![0, 0] : Fin 2 → Nat) = fun _ => 0 := funext fun a => by fin_cases a <;> rfl

/-- The body's value: the product of its two loaded blocks (the change of format is the identity, the accumulator
    starts at zero). -/
theorem pay0 (x0 : Vec Ideal S10000x5 .f32) (x1 : Vec Ideal S5x128 .f32) : k0_pay1 (F := Ideal) x0 x1 = mm x0 x1 := by
  unfold k0_pay1
  exact matmul_eq_mm _ rfl _ _

/-- The index maps over the grid: the feature block and the output block move together down the rows, one block per
    point; the weights stay. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem onto0 : ∀ q : Fin 10, ∃ t : Fin cfg0.N, win0_2.index t = ![q.val, 0] :=
  (by decide +kernel : ∀ q : Fin 10, ∃ t : Fin grid0.N, win0_2.index t = ![q.val, 0])

/-- What point t writes back is block t of the whole product. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero zero_off]
  simp only [View.ld_unit_zero (S := S10000x5) zero_off, View.ld_unit_zero (S := S5x128) zero_off]
  rw [pay0]
  obtain ⟨e0, e1, e2, e3, e4, e5⟩ := idx0 t
  funext j
  show mm (iblk0 V c 0 t) (iblk0 V c 1 t) j = mm (V c main_arg0) (V c main_arg2) (((cfg0.win 2).blk t).view.emb j)
  refine mm_eq_of_row _ _ _ _ j _ ?_ ?_ ?_
  · funext y
    show V c main_arg2 (((cfg0.win 1).blk t).view.emb y) = V c main_arg2 y
    refine congrArg _ (funext fun a => Fin.ext ?_)
    match a with
    | ⟨0, _⟩ => show win0_1.index t (0 : Fin 2) * 5 + 1 * (y 0).val = (y 0).val; omega
    | ⟨1, _⟩ => show win0_1.index t (1 : Fin 2) * 128 + 1 * (y 1).val = (y 1).val; omega
  · show (j 1).val = win0_2.index t (1 : Fin 2) * 128 + 1 * (j 1).val
    omega
  · intro k
    show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 5 + 1 * k.val = k.val; omega

/-- An index is in point t's block iff each coordinate is in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The ten blocks tile the array: row r is in the block of point r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region its output array holds the whole product of the arrays it was entered with. -/
theorem whole0 (c : Dev nD) : (dat0 V c).arrAt 2 cfg0.N = mm (V c main_arg0) (V c main_arg2) :=
  (dat0 V c).arrAt_eq_of_cover 2 _ (fun t _ => flushed0 V c t) cover0

end Cert.KernelIdeal.Whole

end
-- ==== Proof.Region1.lean ====
/-
  The first layer's bias and cut at zero, block by block and as a whole. Point t holds rows 10000·t … 10000·t + 9999
  of the aggregated features and the one-row bias, and writes back, entry by entry, max (a + b, 0) with b the bias of
  the entry's column. Each entry of the result depends on the same entry of the input only, so each written block is
  that block of relu (A + b) of the whole array, and the ten blocks tile it.
-/
import proofs.«175831_j11166914970268_1_alg».proof.Proof.Gen.KernelIdeal.Frame
import proofs.«175831_j11166914970268_1_alg».proof.Proof.LibRowBlocks
import proofs.«175831_j11166914970268_1_alg».proof.Proof.Spec
import Idealize.ShloMosaic.Lib.Pipeline.Value

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.DenseLib Cert.RowBlocks Cert.LayoutLib

variable (V : (c : Dev nD) → (b : Ref sig .tc) → Buf (Elt Ideal) ((c : Thread nD τ).loc b))
open Cert.TwoLayer

theorem zero_off1 : (![0, 0] : Fin 2 → Nat) = fun _ => 0 := funext fun a => by fin_cases a <;> rfl

/-- The body's value: its data block plus the bias row laid along every row, cut at zero (the casts to the same
    shape are the identity). -/
theorem pay1 (v0 : Vec Ideal S1x128 .f32) (v4 : Vec Ideal S10000x128 .f32) :
    k1_pay1 (F := Ideal) v0 v4 = relu (biased v4 (fun q => v0 (ix2 (0 : Fin 1) q))) := by
  show maximumf (F := Ideal) (addf (shapeCast S10000x128 v4 shapeCasts_S10000x128_S10000x128) (broadcastTo S10000x128 (shapeCast S1x128 (shapeCast S1x128 v0 shapeCasts_S1x128_S1x128) shapeCasts_S1x128_S1x128) broadcasts_S1x128_S10000x128)) (broadcast S10000x128 (Scalar.ofBits (F := Ideal) .f32 0x00000000#32)) = _
  rw [shapeCast_self v0, shapeCast_self v0, shapeCast_self v4, broadcastTo_eq_rows, maximumf_splat_zero]
  rfl

/-- The index maps over the grid: the data block and the output block move together down the rows, one block per point; the bias row stays. -/
theorem idx1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some point's. -/
theorem onto1 : ∀ q : Fin 10, ∃ t : Fin cfg1.N, win1_2.index t = ![q.val, 0] :=
  (by decide +kernel : ∀ q : Fin 10, ∃ t : Fin grid1.N, win1_2.index t = ![q.val, 0])

/-- What point t writes back is block t of relu (A + b) of the whole array. -/
theorem flushed1 (c : Dev nD) (t : Fin cfg1.N) :
    (dat1 V c).flushed 2 t = ((cfg1.win 2).blk t).view.read (Elt Ideal) (relu (biased (V c main_v43) (fun q => V c main_v44 (ix2 (0 : Fin 1) q)))) := by
  show (cfg1.win 2).cut (grid1.coords t) ((dat1 V c).after 2 t) = _
  rw [after1_2]
  unfold out1_2
  rw [View.canon_unit_zero zero_off1]
  simp only [View.ld_unit_zero (S := S1x128) zero_off1, View.ld_unit_zero (S := S10000x128) zero_off1]
  rw [pay1]
  obtain ⟨e0, e1, e2, e3, e4, e5⟩ := idx1 t
  funext j
  show relu (biased (iblk1 V c 0 t) (fun q => iblk1 V c 1 t (ix2 (0 : Fin 1) q))) j = relu (biased (V c main_v43) (fun q => V c main_v44 (ix2 (0 : Fin 1) q))) (((cfg1.win 2).blk t).view.emb j)
  refine reluBiased_eq_of_entry _ _ _ _ j _ ?_ ?_ ?_
  · funext q
    show V c main_v44 (((cfg1.win 1).blk t).view.emb (ix2 (0 : Fin 1) q)) = V c main_v44 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show (j 1).val = win1_2.index t (1 : Fin 2) * 128 + 1 * (j 1).val
    omega
  · show V c main_v43 (((cfg1.win 0).blk t).view.emb j) = V c main_v43 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega

/-- An index is in point t's block iff each coordinate is in the block's range. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The ten blocks tile the array: row r is in the block of point r / 10000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region its output array holds relu (A + b) of the arrays it was entered with. -/
theorem whole1 (c : Dev nD) : (dat1 V c).arrAt 2 cfg1.N = relu (biased (V c main_v43) (fun q => V c main_v44 (ix2 (0 : Fin 1) q))) :=
  (dat1 V c).arrAt_eq_of_cover 2 _ (fun t _ => flushed1 V c t) cover1

end Cert.KernelIdeal.Whole

end
-- ==== Proof.Region2.lean ====
/-
  The second product, block by block and as a whole. As for the first: point t holds rows 10000·t … 10000·t + 9999
  of the hidden features and the whole [128, 64] weight matrix and writes back those rows of the product; a row of a
  product depends only on that row of the left operand, and the ten blocks tile the array. After the region the array
  holds H · W.
-/
import proofs.«175831_j11166914970268_1_alg».proof.Proof.Gen.KernelIdeal.Frame
import proofs.«175831_j11166914970268_1_alg».proof.Proof.LibRowBlocks
import Idealize.ShloMosaic.Lib.Pipeline.Value

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.DenseLib Cert.RowBlocks Cert.LayoutLib

variable (V : (c : Dev nD) → (b : Ref sig .tc) → Buf (Elt Ideal) ((c : Thread nD τ).loc b))

theorem zero_off2 : (![0, 0] : Fin 2 → Nat) = fun _ => 0 := funext fun a => by fin_cases a <;> rfl

/-- The body's value: the product of its two loaded blocks (the cast to the same shape and the change of format are
    the identity, the accumulator starts at zero). -/
theorem pay2 (x0 : Vec Ideal S10000x128 .f32) (x1 : Vec Ideal S128x64 .f32) : k2_pay1 (F := Ideal) x0 x1 = mm x0 x1 := by
  unfold k2_pay1
  exact (matmul_eq_mm _ rfl _ _).trans (congrArg (fun x => mm x x1) (shapeCast_self x0 _))

/-- The index maps over the grid: the feature block and the output block move together down the rows, one block per point; the weights stay. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some point's. -/
theorem onto2 : ∀ q : Fin 10, ∃ t : Fin cfg2.N, win2_2.index t = ![q.val, 0] :=
  (by decide +kernel : ∀ q : Fin 10, ∃ t : Fin grid2.N, win2_2.index t = ![q.val, 0])

/-- What point t writes back is block t of the whole product. -/
theorem flushed2 (c : Dev nD) (t : Fin cfg2.N) :
    (dat2 V c).flushed 2 t = ((cfg2.win 2).blk t).view.read (Elt Ideal) (mm (V c main_v45) (V c main_arg4)) := by
  show (cfg2.win 2).cut (grid2.coords t) ((dat2 V c).after 2 t) = _
  rw [after2_2]
  unfold out2_2
  rw [View.canon_unit_zero zero_off2]
  simp only [View.ld_unit_zero (S := S10000x128) zero_off2, View.ld_unit_zero (S := S128x64) zero_off2]
  rw [pay2]
  obtain ⟨e0, e1, e2, e3, e4, e5⟩ := idx2 t
  funext j
  show mm (iblk2 V c 0 t) (iblk2 V c 1 t) j = mm (V c main_v45) (V c main_arg4) (((cfg2.win 2).blk t).view.emb j)
  refine mm_eq_of_row _ _ _ _ j _ ?_ ?_ ?_
  · funext y
    show V c main_arg4 (((cfg2.win 1).blk t).view.emb y) = V c main_arg4 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  · show (j 1).val = win2_2.index t (1 : Fin 2) * 64 + 1 * (j 1).val
    omega
  · intro k
    show V c main_v45 (((cfg2.win 0).blk t).view.emb (ix2 (j 0) k)) = V c main_v45 (ix2 ((((cfg2.win 2).blk t).view.emb j) 0) k)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega

/-- An index is in point t's block iff each coordinate is in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- The ten blocks tile the array: row r is in the block of point r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region its output array holds the whole product of the arrays it was entered with. -/
theorem whole2 (c : Dev nD) : (dat2 V c).arrAt 2 cfg2.N = mm (V c main_v45) (V c main_arg4) :=
  (dat2 V c).arrAt_eq_of_cover 2 _ (fun t _ => flushed2 V c t) cover2

end Cert.KernelIdeal.Whole

end
-- ==== Proof.Region3.lean ====
/-
  The second layer's bias, block by block and as a whole. Point t holds rows 10000·t … 10000·t + 9999 of the
  aggregated features and the one-row bias, and writes back, entry by entry, a + b with b the bias of the entry's
  column. Each entry of the result depends on the same entry of the input only, so each written block is that block
  of A + b of the whole array, and the ten blocks tile it.
-/
import proofs.«175831_j11166914970268_1_alg».proof.Proof.Gen.KernelIdeal.Frame
import proofs.«175831_j11166914970268_1_alg».proof.Proof.LibRowBlocks
import Idealize.ShloMosaic.Lib.Pipeline.Value

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.DenseLib Cert.RowBlocks Cert.LayoutLib

variable (V : (c : Dev nD) → (b : Ref sig .tc) → Buf (Elt Ideal) ((c : Thread nD τ).loc b))

theorem zero_off3 : (![0, 0] : Fin 2 → Nat) = fun _ => 0 := funext fun a => by fin_cases a <;> rfl

/-- The body's value: its data block plus the bias row laid along every row (the casts to the same shape are the
    identity). -/
theorem pay3 (v0 : Vec Ideal S1x64 .f32) (v4 : Vec Ideal S10000x64 .f32) :
    k3_pay1 (F := Ideal) v0 v4 = biased v4 (fun q => v0 (ix2 (0 : Fin 1) q)) := by
  show addf (F := Ideal) (shapeCast S10000x64 v4 shapeCasts_S10000x64_S10000x64) (broadcastTo S10000x64 (shapeCast S1x64 (shapeCast S1x64 v0 shapeCasts_S1x64_S1x64) shapeCasts_S1x64_S1x64) broadcasts_S1x64_S10000x64) = _
  rw [shapeCast_self v0, shapeCast_self v0, shapeCast_self v4, broadcastTo_eq_rows]
  rfl

/-- The index maps over the grid: the data block and the output block move together down the rows, one block per point; the bias row stays. -/
theorem idx3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block of rows is some point's. -/
theorem onto3 : ∀ q : Fin 10, ∃ t : Fin cfg3.N, win3_2.index t = ![q.val, 0] :=
  (by decide +kernel : ∀ q : Fin 10, ∃ t : Fin grid3.N, win3_2.index t = ![q.val, 0])

/-- What point t writes back is block t of A + b of the whole array. -/
theorem flushed3 (c : Dev nD) (t : Fin cfg3.N) :
    (dat3 V c).flushed 2 t = ((cfg3.win 2).blk t).view.read (Elt Ideal) (biased (V c main_v59) (fun q => V c main_v60 (ix2 (0 : Fin 1) q))) := by
  show (cfg3.win 2).cut (grid3.coords t) ((dat3 V c).after 2 t) = _
  rw [after3_2]
  unfold out3_2
  rw [View.canon_unit_zero zero_off3]
  simp only [View.ld_unit_zero (S := S1x64) zero_off3, View.ld_unit_zero (S := S10000x64) zero_off3]
  rw [pay3]
  obtain ⟨e0, e1, e2, e3, e4, e5⟩ := idx3 t
  funext j
  show biased (iblk3 V c 0 t) (fun q => iblk3 V c 1 t (ix2 (0 : Fin 1) q)) j = biased (V c main_v59) (fun q => V c main_v60 (ix2 (0 : Fin 1) q)) (((cfg3.win 2).blk t).view.emb j)
  refine biased_eq_of_entry _ _ _ _ j _ ?_ ?_ ?_
  · funext q
    show V c main_v60 (((cfg3.win 1).blk t).view.emb (ix2 (0 : Fin 1) q)) = V c main_v60 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  · show (j 1).val = win3_2.index t (1 : Fin 2) * 64 + 1 * (j 1).val
    omega
  · show V c main_v59 (((cfg3.win 0).blk t).view.emb j) = V c main_v59 (((cfg3.win 2).blk t).view.emb j)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega

/-- An index is in point t's block iff each coordinate is in the block's range. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- The ten blocks tile the array: row r is in the block of point r / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region its output array holds A + b of the arrays it was entered with. -/
theorem whole3 (c : Dev nD) : (dat3 V c).arrAt 2 cfg3.N = biased (V c main_v59) (fun q => V c main_v60 (ix2 (0 : Fin 1) q)) :=
  (dat3 V c).arrAt_eq_of_cover 2 _ (fun t _ => flushed3 V c t) cover3

end Cert.KernelIdeal.Whole

end
-- ==== Proof.Fold.lean ====
/-
  What the program's buffers hold at each boundary between its segments, read at the buffers the next segment uses,
  from the launch to the result. The three host stretches before the first region leave the source and destination
  index vectors and the edge weights, as functions of the edge table; no later segment writes them, so they are the
  same at every later boundary. The first region leaves X · W1; the stretch after it aggregates that and recasts the
  first bias as one row; the second region leaves relu (· + b1); the third its product with W2; the last stretch
  aggregates that and recasts the second bias; the last region adds it. Composed, the result array is the two-layer
  network of the launch arrays.
-/
import proofs.«175831_j11166914970268_1_alg».proof.Proof.Gen.KernelIdeal.Frame
import proofs.«175831_j11166914970268_1_alg».proof.Proof.HostTerms
import proofs.«175831_j11166914970268_1_alg».proof.Proof.Spec
import proofs.«175831_j11166914970268_1_alg».proof.Proof.Region0
import proofs.«175831_j11166914970268_1_alg».proof.Proof.Region1
import proofs.«175831_j11166914970268_1_alg».proof.Proof.Region2
import proofs.«175831_j11166914970268_1_alg».proof.Proof.Region3
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Idealize.ShloMosaic.StableHlo
open Cert.KernelIdeal Cert.KernelIdeal.Gen Cert.KernelIdeal.HostTerms Cert.DenseLib Cert.RowBlocks Cert.LayoutLib Cert.TwoLayer

variable (m : (ℓ : Loc nD τ sig) → Buf (Elt Ideal) ℓ) (ρ : Dev nD → PrngReg) (c : Dev nD)

/-! ## Before the first region -/

theorem W3_src : W3 m ρ c (Proc.devRef .tc main_v5) = srcIdx (m ((c : Thread nD τ).loc main_arg1)) := by
  show StableHlo.after hostOps0_2 (StableHlo.after hostOps0_1 (StableHlo.after hostOps0 (W0 m ρ c))) (Proc.devRef .tc main_v5) = _
  after_results_simp <;> rfl

theorem W3_dst : W3 m ρ c (Proc.devRef .tc main_v6) = dstIdx (m ((c : Thread nD τ).loc main_arg1)) := by
  show StableHlo.after hostOps0_2 (StableHlo.after hostOps0_1 (StableHlo.after hostOps0 (W0 m ρ c))) (Proc.devRef .tc main_v6) = _
  after_results_simp <;> rfl

/-! The edge weights, stretch by stretch: at any contents `V` a stretch's results are its operations' functions of
    `V` at the buffers it reads. -/

section Stretches

variable (V : Valuation τ sig (Elt Ideal))

theorem first_src : StableHlo.after hostOps0 V (Proc.devRef .tc main_v5) = srcIdx (V (Proc.devRef .tc main_arg1)) := by
  after_results_simp <;> rfl

theorem first_dst : StableHlo.after hostOps0 V (Proc.devRef .tc main_v6) = dstIdx (V (Proc.devRef .tc main_arg1)) := by
  after_results_simp <;> rfl

theorem first_pos : StableHlo.after hostOps0 V (Proc.devRef .tc main_v12)
    = cmpf (F := Ideal) .ogt (degree (StableHlo.after hostOps0 V (Proc.devRef .tc main_v6))) (broadcastInDim S100000 ![] bcast_S_S100000 (constant (F := Ideal) S_ .f32 0x00000000#32)) := by
  after_results_simp <;> rfl

theorem first_rsqrt : StableHlo.after hostOps0 V (Proc.devRef .tc main_v13) = Host.rsqrt (F := Ideal) (degree (StableHlo.after hostOps0 V (Proc.devRef .tc main_v6))) := by
  after_results_simp <;> rfl

theorem first_zero : StableHlo.after hostOps0 V (Proc.devRef .tc main_cst_2) = constant (F := Ideal) S_ .f32 0x00000000#32 := by
  after_results_simp <;> rfl

theorem where_inv : StableHlo.after hostOps0_1 V (Proc.devRef .tc main_v14)
    = select (V (Proc.devRef .tc main_v12)) (V (Proc.devRef .tc main_v13)) (broadcastInDim S100000 ![] bcast_S_S100000 (id (V (Proc.devRef .tc main_cst_2)))) := by
  after_results_simp <;> rfl

theorem where_src : StableHlo.after hostOps0_1 V (Proc.devRef .tc main_v5) = V (Proc.devRef .tc main_v5) := by
  after_results_simp <;> rfl

theorem where_dst : StableHlo.after hostOps0_1 V (Proc.devRef .tc main_v6) = V (Proc.devRef .tc main_v6) := by
  after_results_simp <;> rfl

theorem third_norm : StableHlo.after hostOps0_2 V (Proc.devRef .tc main_v29)
    = mulf (F := Ideal) (φ := .f32) (Host.gather gather_S100000_S1700000x1_S1700000_n_0_n_n_0_1_1 (V (Proc.devRef .tc main_v14)) (wrapCol (V (Proc.devRef .tc main_v5))))
        (Host.gather gather_S100000_S1700000x1_S1700000_n_0_n_n_0_1_1 (V (Proc.devRef .tc main_v14)) (wrapCol (V (Proc.devRef .tc main_v6)))) := by
  after_results_simp <;> rfl

end Stretches

theorem W3_norm : W3 m ρ c (Proc.devRef .tc main_v29) = edgeNorm (srcIdx (m ((c : Thread nD τ).loc main_arg1))) (dstIdx (m ((c : Thread nD τ).loc main_arg1))) := by
  have h29 : W3 m ρ c (Proc.devRef .tc main_v29)
      = mulf (F := Ideal) (φ := .f32) (Host.gather gather_S100000_S1700000x1_S1700000_n_0_n_n_0_1_1 (W2 m ρ c (Proc.devRef .tc main_v14)) (wrapCol (W2 m ρ c (Proc.devRef .tc main_v5))))
          (Host.gather gather_S100000_S1700000x1_S1700000_n_0_n_n_0_1_1 (W2 m ρ c (Proc.devRef .tc main_v14)) (wrapCol (W2 m ρ c (Proc.devRef .tc main_v6)))) :=
    third_norm (W2 m ρ c)
  have h14 : W2 m ρ c (Proc.devRef .tc main_v14)
      = select (W1 m ρ c (Proc.devRef .tc main_v12)) (W1 m ρ c (Proc.devRef .tc main_v13)) (broadcastInDim S100000 ![] bcast_S_S100000 (id (W1 m ρ c (Proc.devRef .tc main_cst_2)))) :=
    where_inv (W1 m ρ c)
  have h5 : W2 m ρ c (Proc.devRef .tc main_v5) = W1 m ρ c (Proc.devRef .tc main_v5) := where_src (W1 m ρ c)
  have h6 : W2 m ρ c (Proc.devRef .tc main_v6) = W1 m ρ c (Proc.devRef .tc main_v6) := where_dst (W1 m ρ c)
  have g5 : W1 m ρ c (Proc.devRef .tc main_v5) = srcIdx (m ((c : Thread nD τ).loc main_arg1)) := first_src (W0 m ρ c)
  have g6 : W1 m ρ c (Proc.devRef .tc main_v6) = dstIdx (m ((c : Thread nD τ).loc main_arg1)) := first_dst (W0 m ρ c)
  have g12 : W1 m ρ c (Proc.devRef .tc main_v12)
      = cmpf (F := Ideal) .ogt (degree (W1 m ρ c (Proc.devRef .tc main_v6))) (broadcastInDim S100000 ![] bcast_S_S100000 (constant (F := Ideal) S_ .f32 0x00000000#32)) :=
    first_pos (W0 m ρ c)
  have g13 : W1 m ρ c (Proc.devRef .tc main_v13) = Host.rsqrt (F := Ideal) (degree (W1 m ρ c (Proc.devRef .tc main_v6))) := first_rsqrt (W0 m ρ c)
  have g0 : W1 m ρ c (Proc.devRef .tc main_cst_2) = constant (F := Ideal) S_ .f32 0x00000000#32 := first_zero (W0 m ρ c)
  rw [h29, h14, h5, h6, g12, g13, g0, g5, g6]
  rfl

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## Buffers no later segment writes keep their contents -/

theorem W4_src : W4 m ρ c (Proc.devRef .tc main_v5) = W3 m ρ c (Proc.devRef .tc main_v5) := W4_of_ne m ρ c main_v5 (by decide)

theorem W5_src : W5 m ρ c (Proc.devRef .tc main_v5) = W3 m ρ c (Proc.devRef .tc main_v5) := by
  refine Eq.trans ?_ (W4_src m ρ c)
  show StableHlo.after hostOps1 (W4 m ρ c) (Proc.devRef .tc main_v5) = _
  after_results_simp <;> rfl

theorem W7_src : W7 m ρ c (Proc.devRef .tc main_v5) = W3 m ρ c (Proc.devRef .tc main_v5) :=
  (W7_of_ne m ρ c main_v5 (by decide)).trans ((W6_of_ne m ρ c main_v5 (by decide)).trans (W5_src m ρ c))

theorem W4_dst : W4 m ρ c (Proc.devRef .tc main_v6) = W3 m ρ c (Proc.devRef .tc main_v6) := W4_of_ne m ρ c main_v6 (by decide)

theorem W5_dst : W5 m ρ c (Proc.devRef .tc main_v6) = W3 m ρ c (Proc.devRef .tc main_v6) := by
  refine Eq.trans ?_ (W4_dst m ρ c)
  show StableHlo.after hostOps1 (W4 m ρ c) (Proc.devRef .tc main_v6) = _
  after_results_simp <;> rfl

theorem W7_dst : W7 m ρ c (Proc.devRef .tc main_v6) = W3 m ρ c (Proc.devRef .tc main_v6) :=
  (W7_of_ne m ρ c main_v6 (by decide)).trans ((W6_of_ne m ρ c main_v6 (by decide)).trans (W5_dst m ρ c))

theorem W4_norm : W4 m ρ c (Proc.devRef .tc main_v29) = W3 m ρ c (Proc.devRef .tc main_v29) := W4_of_ne m ρ c main_v29 (by decide)

theorem W5_norm : W5 m ρ c (Proc.devRef .tc main_v29) = W3 m ρ c (Proc.devRef .tc main_v29) := by
  refine Eq.trans ?_ (W4_norm m ρ c)
  show StableHlo.after hostOps1 (W4 m ρ c) (Proc.devRef .tc main_v29) = _
  after_results_simp <;> rfl

theorem W7_norm : W7 m ρ c (Proc.devRef .tc main_v29) = W3 m ρ c (Proc.devRef .tc main_v29) :=
  (W7_of_ne m ρ c main_v29 (by decide)).trans ((W6_of_ne m ρ c main_v29 (by decide)).trans (W5_norm m ρ c))

theorem W4_arg3 : W4 m ρ c (Proc.devRef .tc main_arg3) = W3 m ρ c (Proc.devRef .tc main_arg3) := W4_of_ne m ρ c main_arg3 (by decide)

theorem W5_arg3 : W5 m ρ c (Proc.devRef .tc main_arg3) = W3 m ρ c (Proc.devRef .tc main_arg3) := by
  refine Eq.trans ?_ (W4_arg3 m ρ c)
  show StableHlo.after hostOps1 (W4 m ρ c) (Proc.devRef .tc main_arg3) = _
  after_results_simp <;> rfl

theorem W7_arg3 : W7 m ρ c (Proc.devRef .tc main_arg3) = W3 m ρ c (Proc.devRef .tc main_arg3) :=
  (W7_of_ne m ρ c main_arg3 (by decide)).trans ((W6_of_ne m ρ c main_arg3 (by decide)).trans (W5_arg3 m ρ c))

theorem W4_arg4 : W4 m ρ c (Proc.devRef .tc main_arg4) = W3 m ρ c (Proc.devRef .tc main_arg4) := W4_of_ne m ρ c main_arg4 (by decide)

theorem W5_arg4 : W5 m ρ c (Proc.devRef .tc main_arg4) = W3 m ρ c (Proc.devRef .tc main_arg4) := by
  refine Eq.trans ?_ (W4_arg4 m ρ c)
  show StableHlo.after hostOps1 (W4 m ρ c) (Proc.devRef .tc main_arg4) = _
  after_results_simp <;> rfl

theorem W4_arg5 : W4 m ρ c (Proc.devRef .tc main_arg5) = W3 m ρ c (Proc.devRef .tc main_arg5) := W4_of_ne m ρ c main_arg5 (by decide)

theorem W5_arg5 : W5 m ρ c (Proc.devRef .tc main_arg5) = W3 m ρ c (Proc.devRef .tc main_arg5) := by
  refine Eq.trans ?_ (W4_arg5 m ρ c)
  show StableHlo.after hostOps1 (W4 m ρ c) (Proc.devRef .tc main_arg5) = _
  after_results_simp <;> rfl

theorem W7_arg5 : W7 m ρ c (Proc.devRef .tc main_arg5) = W3 m ρ c (Proc.devRef .tc main_arg5) :=
  (W7_of_ne m ρ c main_arg5 (by decide)).trans ((W6_of_ne m ρ c main_arg5 (by decide)).trans (W5_arg5 m ρ c))

theorem W6_arg4 : W6 m ρ c (Proc.devRef .tc main_arg4) = W3 m ρ c (Proc.devRef .tc main_arg4) :=
  (W6_of_ne m ρ c main_arg4 (by decide)).trans (W5_arg4 m ρ c)

/-! ## The first layer -/

/-- After the first region: the product of the features with the first weights. -/
theorem at_v30 : W4 m ρ c (Proc.devRef .tc main_v30) = mm (m ((c : Thread nD τ).loc main_arg0)) (m ((c : Thread nD τ).loc main_arg2)) := by
  refine (W4_arr m ρ c 2).trans ?_
  rw [whole0]
  show mm (W3 m ρ c (Proc.devRef .tc main_arg0)) (W3 m ρ c (Proc.devRef .tc main_arg2)) = _
  rw [W3_arg0, W3_arg2]

/-- After the stretch that follows: its aggregation. -/
theorem at_v43 : W5 m ρ c (Proc.devRef .tc main_v43) = layerAgg128 (m ((c : Thread nD τ).loc main_arg1)) (mm (m ((c : Thread nD τ).loc main_arg0)) (m ((c : Thread nD τ).loc main_arg2))) := by
  have h : W5 m ρ c (Proc.devRef .tc main_v43) = agg128 (W4 m ρ c (Proc.devRef .tc main_v5)) (W4 m ρ c (Proc.devRef .tc main_v6)) (W4 m ρ c (Proc.devRef .tc main_v29)) (W4 m ρ c (Proc.devRef .tc main_v30)) := by
    show StableHlo.after hostOps1 (W4 m ρ c) (Proc.devRef .tc main_v43) = _
    after_results_simp <;> rfl
  rw [h, W4_src, W4_dst, W4_norm, W3_src, W3_dst, W3_norm, at_v30]
  rfl

/-- And the first bias recast as one row. -/
theorem at_v44 : W5 m ρ c (Proc.devRef .tc main_v44) = shapeCast S1x128 (m ((c : Thread nD τ).loc main_arg3)) shapeCasts_S128_S1x128 := by
  have h : W5 m ρ c (Proc.devRef .tc main_v44) = shapeCast S1x128 (W4 m ρ c (Proc.devRef .tc main_arg3)) shapeCasts_S128_S1x128 := by
    show StableHlo.after hostOps1 (W4 m ρ c) (Proc.devRef .tc main_v44) = _
    after_results_simp <;> rfl
  rw [h, W4_arg3, W3_arg3]

/-- After the second region: the bias added and the cut at zero. -/
theorem at_v45 : W6 m ρ c (Proc.devRef .tc main_v45) = relu (biased (layerAgg128 (m ((c : Thread nD τ).loc main_arg1)) (mm (m ((c : Thread nD τ).loc main_arg0)) (m ((c : Thread nD τ).loc main_arg2)))) (fun q => (m ((c : Thread nD τ).loc main_arg3)) (ix1 q))) := by
  refine (W6_arr m ρ c 2).trans ?_
  rw [whole1]
  show relu (biased (W5 m ρ c (Proc.devRef .tc main_v43)) (fun q => W5 m ρ c (Proc.devRef .tc main_v44) (ix2 (0 : Fin 1) q))) = _
  rw [at_v43, at_v44]
  refine congrArg (fun b => relu (biased _ b)) (funext fun q => ?_)
  exact shapeCast_vecRow_apply _ _ (0 : Fin 1) q

/-! ## The second layer -/

/-- After the third region: the product with the second weights. -/
theorem at_v46 : W7 m ρ c (Proc.devRef .tc main_v46) = mm (relu (biased (layerAgg128 (m ((c : Thread nD τ).loc main_arg1)) (mm (m ((c : Thread nD τ).loc main_arg0)) (m ((c : Thread nD τ).loc main_arg2)))) (fun q => (m ((c : Thread nD τ).loc main_arg3)) (ix1 q)))) (m ((c : Thread nD τ).loc main_arg4)) := by
  refine (W7_arr m ρ c 2).trans ?_
  rw [whole2]
  show mm (W6 m ρ c (Proc.devRef .tc main_v45)) (W6 m ρ c (Proc.devRef .tc main_arg4)) = _
  rw [at_v45, W6_arg4, W3_arg4]

/-- After the last stretch: its aggregation, and the second bias recast as one row. -/
theorem at_v59 : W8 m ρ c (Proc.devRef .tc main_v59) = layerAgg64 (m ((c : Thread nD τ).loc main_arg1)) (mm (relu (biased (layerAgg128 (m ((c : Thread nD τ).loc main_arg1)) (mm (m ((c : Thread nD τ).loc main_arg0)) (m ((c : Thread nD τ).loc main_arg2)))) (fun q => (m ((c : Thread nD τ).loc main_arg3)) (ix1 q)))) (m ((c : Thread nD τ).loc main_arg4))) := by
  have h : W8 m ρ c (Proc.devRef .tc main_v59) = agg64 (W7 m ρ c (Proc.devRef .tc main_v5)) (W7 m ρ c (Proc.devRef .tc main_v6)) (W7 m ρ c (Proc.devRef .tc main_v29)) (W7 m ρ c (Proc.devRef .tc main_v46)) := by
    show StableHlo.after hostOps3 (W7 m ρ c) (Proc.devRef .tc main_v59) = _
    after_results_simp <;> rfl
  rw [h, W7_src, W7_dst, W7_norm, W3_src, W3_dst, W3_norm, at_v46]
  rfl

theorem at_v60 : W8 m ρ c (Proc.devRef .tc main_v60) = shapeCast S1x64 (m ((c : Thread nD τ).loc main_arg5)) shapeCasts_S64_S1x64 := by
  have h : W8 m ρ c (Proc.devRef .tc main_v60) = shapeCast S1x64 (W7 m ρ c (Proc.devRef .tc main_arg5)) shapeCasts_S64_S1x64 := by
    show StableHlo.after hostOps3 (W7 m ρ c) (Proc.devRef .tc main_v60) = _
    after_results_simp <;> rfl
  rw [h, W7_arg5, W3_arg5]

/-- THE RESULT: after the last region the result array is the two-layer network of the launch arrays, with the two
    aggregations those of the launch edge table. -/
theorem result_eq : W9 m ρ c (Proc.devRef .tc main_v61)
    = net (layerAgg128 (m ((c : Thread nD τ).loc main_arg1))) (layerAgg64 (m ((c : Thread nD τ).loc main_arg1))) (m ((c : Thread nD τ).loc main_arg0)) (m ((c : Thread nD τ).loc main_arg2)) (fun q => (m ((c : Thread nD τ).loc main_arg3)) (ix1 q)) (m ((c : Thread nD τ).loc main_arg4)) (fun q => (m ((c : Thread nD τ).loc main_arg5)) (ix1 q)) := by
  refine (W9_arr m ρ c 2).trans ?_
  rw [whole3]
  show biased (W8 m ρ c (Proc.devRef .tc main_v59)) (fun q => W8 m ρ c (Proc.devRef .tc main_v60) (ix2 (0 : Fin 1) q)) = _
  rw [at_v59, at_v60]
  refine congrArg (fun b => biased _ b) (funext fun q => ?_)
  exact shapeCast_vecRow_apply _ _ (0 : Fin 1) q

end Cert.KernelIdeal.Whole

end
-- ==== Proof.RefNet.lean ====
/-
  The reference's result is the same two-layer network. Its composed term applies, in the host's spelling, a general
  dot with one contracted axis (the product), the edge aggregation, a vector broadcast in two steps and added (the
  bias along every row), a maximum against a broadcast zero (the cut at zero), then the second dot, aggregation and
  bias. The aggregations are, operation for operation, the maps named for the program's host stretches; the dots,
  the bias rows and the cut are the specification's product, rows and relu.
-/
import proofs.«175831_j11166914970268_1_alg».proof.Proof.RefRunPatched
import proofs.«175831_j11166914970268_1_alg».proof.Proof.Gen.KernelIdeal
import proofs.«175831_j11166914970268_1_alg».proof.Proof.HostTerms
import proofs.«175831_j11166914970268_1_alg».proof.Proof.Spec

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ValueP
open Cert.KernelIdeal.HostTerms Cert.DenseLib Cert.RowBlocks Cert.LayoutLib Cert.TwoLayer

variable (m : (ℓ : Loc nD τ sig) → Buf (Elt Ideal) ℓ) (c : Dev nD)

/-- The reference's term with the two aggregations named: the host's spelling of the network. -/
theorem res_host : res_main_v90 (F := Ideal) m c
    = addf (F := Ideal) (layerAgg64 (m ((c.tc : Thread nD τ).loc main_arg1))
        (Host.dotGeneral (F := Ideal) (φ₁ := .f32) (φ₂ := .f32) dot_S100000x128_S128x64_S100000x64_1_0_0_1_n_n none
          (maximumf (F := Ideal) (addf (F := Ideal) (layerAgg128 (m ((c.tc : Thread nD τ).loc main_arg1))
              (Host.dotGeneral (F := Ideal) (φ₁ := .f32) (φ₂ := .f32) dot_S100000x5_S5x128_S100000x128_1_0_0_1_n_n none (m ((c.tc : Thread nD τ).loc main_arg0)) (m ((c.tc : Thread nD τ).loc main_arg2))))
            (broadcastInDim S100000x128 ![0, 1] bcast_S1x128_S100000x128_0_1 (broadcastInDim S1x128 ![1] bcast_S128_S1x128_1 (m ((c.tc : Thread nD τ).loc main_arg3)))))
            (broadcastInDim S100000x128 ![] bcast_S_S100000x128 (constant (F := Ideal) S_ .f32 0x00000000#32)))
          (m ((c.tc : Thread nD τ).loc main_arg4))))
      (broadcastInDim S100000x64 ![0, 1] bcast_S1x64_S100000x64_0_1 (broadcastInDim S1x64 ![1] bcast_S64_S1x64_1 (m ((c.tc : Thread nD τ).loc main_arg5)))) := by
  unfold res_main_v90
  rfl

/-- THE REFERENCE'S RESULT is the two-layer network of its argument arrays, with the aggregations of its edge table. -/
theorem res_eq : res_main_v90 (F := Ideal) m c
    = net (layerAgg128 (m ((c.tc : Thread nD τ).loc main_arg1))) (layerAgg64 (m ((c.tc : Thread nD τ).loc main_arg1))) (m ((c.tc : Thread nD τ).loc main_arg0)) (m ((c.tc : Thread nD τ).loc main_arg2)) (fun q => (m ((c.tc : Thread nD τ).loc main_arg3)) (ix1 q)) (m ((c.tc : Thread nD τ).loc main_arg4)) (fun q => (m ((c.tc : Thread nD τ).loc main_arg5)) (ix1 q)) := by
  rw [res_host, dotGeneral_eq_mm dot_S100000x5_S5x128_S100000x128_1_0_0_1_n_n rfl, dotGeneral_eq_mm dot_S100000x128_S128x64_S100000x64_1_0_0_1_n_n rfl,
    broadcastInDim_eq_rows, broadcastInDim_eq_rows, maximumf_bcast_zero]
  rfl

end Cert.ReferenceIdeal.RefValue

end
-- ==== Proof.lean ====
/-
  Two programs for a two-layer graph network on N = 100000 nodes: features X [N, 5], an edge table [2, 1600000],
  weights W1 [5, 128], W2 [128, 64] and biases b1, b2. Each layer multiplies the node features by its weights,
  aggregates the product over the edges (every node also joined to itself; the row of an edge's source, scaled by the
  inverse roots of the degrees at its two ends, is added at its destination), and adds its bias along every row; the
  first layer's result is cut at zero:  out = A (relu (A (X · W1) + b1) · W2) + b2.

  One program computes the two products and the two bias steps in four regions of ten row blocks each, with the
  aggregation between them on the host; the other computes everything on the host. Over the extended reals a change
  of float format is the identity and a product accumulated into zero is the plain product; a row of a product, and
  an entry of a biased array, depend only on the same row or entry of the input, so the blocks written by each region
  are the blocks of one whole-array function (Region0 … Region3). The host stretches between the regions are, operation
  for operation, the same maps in both programs (HostTerms), so the aggregation is never opened: both results are the
  same function `net` (Spec) of the argument arrays (Fold for the program with regions, RefNet for the other). No
  finiteness of the inputs is used.
-/
import proofs.«175831_j11166914970268_1_alg».proof.Defs
import proofs.«175831_j11166914970268_1_alg».proof.Proof.Gen.Kernel
import proofs.«175831_j11166914970268_1_alg».proof.Proof.Gen.Kernel.Frame
import proofs.«175831_j11166914970268_1_alg».proof.Proof.Gen.KernelIdeal
import proofs.«175831_j11166914970268_1_alg».proof.Proof.Gen.KernelIdeal.Frame
import proofs.«175831_j11166914970268_1_alg».proof.Proof.Gen.ReferenceIdeal
import proofs.«175831_j11166914970268_1_alg».proof.Proof.Gen.Pre_finite_inputs
import proofs.«175831_j11166914970268_1_alg».proof.Proof.RefRunPatched
import proofs.«175831_j11166914970268_1_alg».proof.Proof.RunValue
import proofs.«175831_j11166914970268_1_alg».proof.Proof.Fold
import proofs.«175831_j11166914970268_1_alg».proof.Proof.RefNet
import Idealize.ShloMosaic.Adequacy
import Idealize.ShloMosaic.Init

noncomputable section

namespace Cert.Proof

open Idealize.ShloMosaic Idealize.ShloMosaic.TcCoe Idealize.ShloMosaic.ValueIdx Idealize.SL.Sem
open Cert.KernelIdeal.HostTerms Cert.TwoLayer

/-- Each program runs to the end without a fault and leaves its arguments as launched. -/
theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten between the program and its reading over the extended reals. -/
theorem preserves : Cert.preserves_Kernel_KernelIdeal := trivial

/-- From memories that agree on the arguments both programs end with the two-layer network of those arguments. -/
theorem algebraic : Cert.algebraic_KernelIdeal_ReferenceIdeal := by
  intro m ρ m' ρ' _ hagree
  refine ⟨fun c => net (layerAgg128 (m ((c.tc : Thread Cert.KernelIdeal.nD Cert.KernelIdeal.τ).loc Cert.KernelIdeal.main_arg1))) (layerAgg64 (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (fun q => (m ((c.tc : Thread Cert.KernelIdeal.nD Cert.KernelIdeal.τ).loc Cert.KernelIdeal.main_arg3)) (ix1 q)) (m ((c.tc : Thread Cert.KernelIdeal.nD Cert.KernelIdeal.τ).loc Cert.KernelIdeal.main_arg4)) (fun q => (m ((c.tc : Thread Cert.KernelIdeal.nD Cert.KernelIdeal.τ).loc Cert.KernelIdeal.main_arg5)) (ix1 q)), ?_, ?_⟩
  · exact (θ_run Cert.KernelIdeal.defs _ _).mono
      (fun r h c => ⟨(h c).1.trans (Cert.KernelIdeal.Whole.result_eq m ρ c), (h c).2⟩)
      (Cert.KernelIdeal.Whole.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.RefValue.res_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
